-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x2048x2048 : Shape := ⟨4, ![8, 1, 2048, 2048]⟩
abbrev S_ : Shape := ⟨0, ![]⟩

class Facts : Prop where
  bcast_S_S8x1x2048x2048 : S_.BroadcastsInDim S8x1x2048x2048 (![] : Fin 0 → Fin S8x1x2048x2048.rank)
  reducesTo_S8x1x2048x2048_S_d0_1_2_3 : S8x1x2048x2048.ReducesTo [0, 1, 2, 3] S_
  h_S_ : 0 < S_.numel

variable [Facts]

def fn {F : FTy → Type} [FloatOps F] (main_arg0 : FVec F S8x1x2048x2048 .f32) : IVec S_ 1 :=
  let main_v0 : FVec F S8x1x2048x2048 .f32 := Host.absf main_arg0
  let main_cst : FVec F S_ .f32 := constant S_ .f32 0x7F800000#32
  let main_v1 : FVec F S8x1x2048x2048 .f32 := broadcastInDim S8x1x2048x2048 ![] bcast_S_S8x1x2048x2048 main_cst
  let main_v2 : IVec S8x1x2048x2048 1 := cmpf .olt main_v0 main_v1
  let main_c : IVec S_ 1 := constantI S_ 1 1#1
  let main_v3 : IVec S_ 1 := (fun x v => Host.reduce IntOp.andi x v reducesTo_S8x1x2048x2048_S_d0_1_2_3 h_S_) main_v2 main_c
  main_v3
-- ==== Kernel.lean ====
abbrev S8x1x2048x2048 : Shape := ⟨4, ![8, 1, 2048, 2048]⟩
abbrev S16384x2048 : Shape := ⟨2, ![16384, 2048]⟩
abbrev S1024x2048 : Shape := ⟨2, ![1024, 2048]⟩

abbrev nBuf : Space → Nat
  | .hbm => 4
  | .vmem => 4
  | .smem => 0
  | _ => 0

abbrev bufTy : (tb : Table) → Fin (tcTables nBuf tb) → BufTy
  | .hbm, ⟨0, _⟩ => ⟨S8x1x2048x2048, .f32⟩
  | .hbm, ⟨1, _⟩ => ⟨S16384x2048, .f32⟩
  | .hbm, ⟨2, _⟩ => ⟨S16384x2048, .f32⟩
  | .hbm, ⟨3, _⟩ => ⟨S8x1x2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | _, _ => ⟨S8x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x1x2048x2048_S16384x2048 : S8x1x2048x2048.ShapeCasts S16384x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S16384x2048_S8x1x2048x2048 : S16384x2048.ShapeCasts S8x1x2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)

variable [Facts₀]

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1x2048x2048 : Shape := ⟨4, ![8, 1, 2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8x1x2048x2048, .f32⟩
  | .hbm, ⟨1, _⟩ => ⟨S_, .f32⟩
  | .hbm, ⟨2, _⟩ => ⟨S8x1x2048x2048, .f32⟩
  | .hbm, ⟨3, _⟩ => ⟨S8x1x2048x2048, .i1⟩
  | .hbm, ⟨4, _⟩ => ⟨S_, .f32⟩
  | .hbm, ⟨5, _⟩ => ⟨S8x1x2048x2048, .f32⟩
  | .hbm, ⟨6, _⟩ => ⟨S_, .f32⟩
  | .hbm, ⟨7, _⟩ => ⟨S8x1x2048x2048, .f32⟩
  | .hbm, ⟨8, _⟩ => ⟨S8x1x2048x2048, .f32⟩
  | _, _ => ⟨S8x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S8x1x2048x2048 : S_.BroadcastsInDim S8x1x2048x2048 (![] : Fin 0 → Fin S8x1x2048x2048.rank)

variable [Facts₀]

class Facts : Prop extends Facts₀ where

variable [Facts]
-- ==== Proof.Threshold.lean ====
/-
  The function both programs compute, one element at a time: the indicator of the open half-line above one tenth,
  as a float — `1` where the element is greater than the float literal `0.1`, `0` elsewhere. The comparison is the
  ordered "greater than" of the float type, the three literals are kept as their binary words (the same words occur
  in both programs, so their values are never needed), and nothing here depends on which float model `F` is read.
  Over an array the function acts element by element, so it commutes with every re-indexing of the array; a
  re-indexing there and back (a row-major reshape of [8, 1, 2048, 2048] to [16384, 2048] and its inverse) therefore
  cancels around it.
-/
import Idealize.ShloMosaic.PureOps
import Idealize.ShloMosaic.Lib.Pipeline.Value

noncomputable section

namespace Cert.Threshold

open Idealize.ShloMosaic

variable {F : FTy → Type} [FloatOps F]

/-- One element: `1` if `x > 0.1` (ordered comparison against the float literal), else `0`. -/
def thr (x : F .f32) : F .f32 :=
  Scalar.select (FloatOps.cmpf .ogt x (FloatOps.ofBits .f32 0x3DCCCCCD#32))
    (FloatOps.ofBits .f32 0x3F800000#32) (FloatOps.ofBits .f32 0x00000000#32)

/-- A whole array, element by element. -/
def thrArr {s : Shape} (x : s.Idx → F .f32) : s.Idx → F .f32 := fun i => thr (x i)

/-- Thresholding commutes with a reshape: the reshape only says WHERE each element is read. -/
theorem shapeCast_thrArr {s t : Shape} (x : s.Idx → F .f32) (h : s.ShapeCasts t) :
    shapeCast t (thrArr x) h = thrArr (shapeCast t x h) := rfl

/-- Reshape, threshold, reshape back: the two reshapes cancel, leaving the threshold of the array itself. -/
theorem reshape_thr_reshape {s t : Shape} (x : s.Idx → F .f32) (h : s.ShapeCasts t) (h' : t.ShapeCasts s) :
    shapeCast s (thrArr (shapeCast t x h)) h' = thrArr x := by
  rw [shapeCast_thrArr, shapeCast_shapeCast]

end Cert.Threshold

end
-- ==== Proof.Reference.lean ====
/-
  The reference program's result is the threshold of its argument, element by element: it compares the argument with
  a broadcast of the literal `0.1` and selects between broadcasts of `1` and `0`. A broadcast of a scalar reads the same
  scalar at every index, so at each index the composed term is the one-element threshold of the argument's element.
-/
import proofs.«175749_g86139864088598_cont_9to1c4b_544_2_alg».proof.Defs
import proofs.«175749_g86139864088598_cont_9to1c4b_544_2_alg».proof.Proof.Gen.ReferenceIdeal.Run
import proofs.«175749_g86139864088598_cont_9to1c4b_544_2_alg».proof.Proof.Gen.ReferenceIdeal.Read
import proofs.«175749_g86139864088598_cont_9to1c4b_544_2_alg».proof.Proof.Threshold

noncomputable section

namespace Cert.ReferenceIdeal.RefValue

open Cert.ReferenceIdeal Cert.ReferenceIdeal.Gen Cert.ReferenceIdeal.Read Idealize.ShloMosaic Cert.Threshold

variable {F : FTy → Type} [FloatOps F]

/-- The last stage of the reference (the select over the comparison and the two constant arrays) is `thrArr`. -/
theorem val_main_v4_eq_thr (x0 : (⟨S8x1x2048x2048, .f32⟩ : BufTy).Contents (Elt F)) :
    val_main_v4 (F := F) x0 = thrArr (s := S8x1x2048x2048) x0 := by
  funext i
  rw [val_main_v4_apply, val_main_v1_apply, val_main_v0_apply, val_main_v2_apply, val_main_v3_apply,
    val_main_cst_apply, val_main_cst_0_apply, val_main_cst_1_apply]
  rfl

end Cert.ReferenceIdeal.RefValue

end
-- ==== Proof.KernelBlocks.lean ====
/-
  The array the kernel's region leaves behind. The region walks a grid of 16 points over a [16384, 2048] array; at
  point `t` it fetches rows `1024·t … 1024·t + 1023` (all 2048 columns) of the input array, thresholds the block
  element by element, and writes the result back to the same rows of the output array. Because the threshold acts on
  each element by itself, what point `t` writes back is exactly block `t` of ONE whole-array function — the threshold
  of the input array — and since the 16 row blocks tile the array (row `r` lies in block `r / 1024`), the output array
  after the region IS that function.
-/
import proofs.«175749_g86139864088598_cont_9to1c4b_544_2_alg».proof.Proof.Gen.KernelIdeal.Frame
import proofs.«175749_g86139864088598_cont_9to1c4b_544_2_alg».proof.Proof.Threshold
import Idealize.ShloMosaic.Lib.Pipeline.Value

noncomputable section

namespace Cert.KernelIdeal.Blocks

open Cert.KernelIdeal Cert.KernelIdeal.Gen Idealize.ShloMosaic Idealize.ShloMosaic.TcCoe Idealize.SL.Sem Cert.Threshold
open Idealize.ShloMosaic.Pipeline (Dat)

variable {F : FTy → Type} [FloatOps F]
variable (m : (ℓ : Loc nD τ sig) → Buf (Elt F) ℓ) (ρ : Dev nD → PrngReg)

/-- The body's one load and one store both sit at the block's origin. -/
theorem origin_zero : (![0, 0] : Fin 2 → Nat) = fun _ => 0 := funext fun a => by fin_cases a <;> rfl

/-- The body's arithmetic on a loaded block is the threshold of the block, element by element: the shape cast is to the
    block's own shape (the identity), the three constants are splat over the block, and compare-then-select at an index
    is the one-element threshold. -/
theorem body_is_threshold (x0 : Vec F S1024x2048 .f32) : k0_pay1 x0 = thrArr (s := S1024x2048) x0 := by
  funext j
  show thr (shapeCast S1024x2048 x0 shapeCasts_S1024x2048_S1024x2048 j) = thr (x0 j)
  rw [shapeCast_self]

/-- The two index maps, decided over the 16 grid points: the input block and the output block of a point are the same
    block (block row `t`, block column `0`), and the block row stays below 16. -/
theorem block_index_facts : ∀ t : Fin cfg0.N, win0_0.index t (0 : Fin 2) = win0_1.index t (0 : Fin 2) + 0
    ∧ win0_0.index t (1 : Fin 2) = win0_1.index t (1 : Fin 2) + 0
    ∧ 0 ≤ win0_1.index t (0 : Fin 2) ∧ win0_1.index t (0 : Fin 2) ≤ 15
    ∧ 0 ≤ win0_1.index t (1 : Fin 2) ∧ win0_1.index t (1 : Fin 2) ≤ 0 :=
  (by decide +kernel : ∀ t : Fin grid0.N, _)

/-- Every block row is some grid point's. -/
theorem every_block_row_is_a_point : ∀ (q0 : Fin 16) (q1 : Fin 1), ∃ t : Fin cfg0.N, win0_1.index t = ![q0.val + 0, q1.val + 0] :=
  (by decide +kernel : ∀ (q0 : Fin 16) (q1 : Fin 1), ∃ t : Fin grid0.N, win0_1.index t = ![q0.val + 0, q1.val + 0])

/-- What point `t` writes back is block `t` of the threshold of the input array as the region finds it. -/
theorem written_back_eq (c : Dev nD) (t : Fin cfg0.N) :
    (dats m 0 c).flushed 1 t = ((cfg0.win 1).blk t).view.read (Elt F) (thrArr (s := S16384x2048) (V m c main_v0)) := by
  show (cfg0.win 1).cut (grid0.coords t) ((dats m 0 c).after 1 t) = _
  rw [after0_1]
  unfold out0_1
  rw [View.canon_unit_zero origin_zero]
  simp only [View.ld_unit_zero (S := S1024x2048) origin_zero]
  rw [body_is_threshold]
  obtain ⟨e0, e1, e2, e3, e4, e5⟩ := block_index_facts t
  funext j
  show thr (V m c main_v0 (((cfg0.win 0).blk t).view.emb j)) = thr (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 2048 + 1 * (j 1).val = win0_1.index t (1 : Fin 2) * 2048 + 1 * (j 1).val; omega
  rw [h0]

/-- An index of the output array lies in point `t`'s block iff each coordinate lies in the block's range on its axis. -/
theorem mem_block (t : Fin cfg0.N) (i : S16384x2048.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v1).slice (win0_1.rect t)).set ↔ _
  rw [View.set_slice_whole, Rect.mem_set_unit]
  exact Iff.rfl

/-- The 16 row blocks tile the array: row `r` is in the block of the point whose block row is `r / 1024`. -/
theorem rows_covered (i : S16384x2048.Idx) :
    ∃ t : Fin cfg0.N, (cfg0.win 1).flush t = true ∧ i ∈ ((cfg0.win 1).blk t).view.set := by
  have hi0 : (i 0).val < 16384 := (i 0).isLt
  have hi1 : (i 1).val < 2048 := (i 1).isLt
  obtain ⟨t, ht⟩ := every_block_row_is_a_point ⟨(i 0).val / 1024, by omega⟩ ⟨(i 1).val / 2048, by omega⟩
  have q0 : win0_1.index t (0 : Fin 2) = (i 0).val / 1024 + 0 := congrFun ht 0
  have q1 : win0_1.index t (1 : Fin 2) = (i 1).val / 2048 + 0 := congrFun ht 1
  refine ⟨t, flush0_1 t, ?_⟩
  rw [mem_block]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 2048 ≤ (i 1).val ∧ (i 1).val < win0_1.index t (1 : Fin 2) * 2048 + 2048; omega

/-- The output array after the region: the threshold of the input array as the region finds it, element by element. -/
theorem array_after_region (c : Dev nD) :
    (dats m 0 c).arrAt 1 cfg0.N = thrArr (s := S16384x2048) (V m c main_v0) :=
  (dats m 0 c).arrAt_eq_of_cover 1 _ (fun t _ => written_back_eq m c t) rows_covered

end Cert.KernelIdeal.Blocks

end
-- ==== Proof.KernelValue.lean ====
/-
  The kernel program's result as a function of its argument. Around the region the host reshapes the argument
  [8, 1, 2048, 2048] to [16384, 2048] (row-major, so element `k` of the flat order stays element `k`), and after the
  region reshapes the region's output back. The region's output is the threshold of its input, element by element
  (the blocks tile the array), and an element-by-element function commutes with a reshape, so the two reshapes cancel:
  the program's result is the threshold of the argument itself.
-/
import proofs.«175749_g86139864088598_cont_9to1c4b_544_2_alg».proof.Proof.KernelBlocks
import Idealize.ShloMosaic.Lib.StableHlo.Run

noncomputable section

namespace Cert.KernelIdeal.Blocks

open Cert.KernelIdeal Cert.KernelIdeal.Gen Idealize.ShloMosaic Idealize.ShloMosaic.TcCoe Idealize.SL.Sem Cert.Threshold
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The region's input array is the host's reshape of the argument. -/
theorem region_input (c : Dev nD) :
    (V m c main_v0 : S16384x2048.Idx → Elt F .f32)
      = shapeCast S16384x2048 (m ((c : Thread nD τ).loc main_arg0)) shapeCasts_S8x1x2048x2048_S16384x2048 := by
  show StableHlo.after hostOps0 (fun b => m (c, b)) (Proc.devRef .tc main_v0) = _
  after_results
  rfl

/-- The program's result is the host's reshape of the region's output array. -/
theorem result_is_reshape (c : Dev nD) :
    (Pipeline.afterTail₀ cfgs (dats m) 0 (V0 m) [hostOps1] c main_v2 : S8x1x2048x2048.Idx → Elt F .f32)
      = shapeCast S8x1x2048x2048 ((dats m 0 c).arrAt 1 cfg0.N) shapeCasts_S16384x2048_S8x1x2048x2048 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 1
  funext i
  exact congrArg (fun y => shapeCast S8x1x2048x2048 y shapeCasts_S16384x2048_S8x1x2048x2048 i) e

/-- The program's result, as a function of the argument: its threshold, element by element. The region's input is
    the reshaped argument, the region's output the threshold of its input, the result the output reshaped back — and the
    two reshapes cancel around an element-by-element function. -/
theorem result_eq (c : Dev nD) :
    (Pipeline.afterTail₀ cfgs (dats m) 0 (V0 m) [hostOps1] c main_v2 : S8x1x2048x2048.Idx → Elt F .f32)
      = thrArr (s := S8x1x2048x2048) (m ((c : Thread nD τ).loc main_arg0)) := by
  rw [result_is_reshape, array_after_region, region_input]
  exact reshape_thr_reshape (s := S8x1x2048x2048) (t := S16384x2048) _ _ _

/-- Every weakly fair execution of the kernel program terminates with the result array at the threshold of the argument
    and the argument unchanged: the generated frame run, its post read at the result (what the host lines after the
    region leave there) and at the argument. -/
theorem run : θ_run defs (onTc (τ := τ) (main (F := F))) ⟨m, fun _ => 0, ρ⟩ fun r => ∀ c : Dev nD,
      r.2.mem ((c : Thread nD τ).loc main_v2) = thrArr (s := S8x1x2048x2048) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Blocks

end
-- ==== Proof.lean ====
/-
  The kernel thresholds a [8, 1, 2048, 2048] array at one tenth: each element becomes `1` where it is greater than
  the float literal `0.1` and `0` elsewhere. It does so by reshaping the array to [16384, 2048], thresholding 16 row
  blocks of 1024 rows one after the other, and reshaping back; the reference compares the whole array with a broadcast
  of the same literal and selects between broadcasts of `1` and `0`. Both are the same element-by-element function
  (`Threshold.thrArr`): the kernel's blocks tile the array and the two row-major reshapes cancel around a function that
  acts on each element by itself (`KernelValue.run`), and the reference's broadcasts read the same three literals at
  every index (`Reference.val_main_v4_eq_thr`). No arithmetic law of the extended reals is used — the comparison and
  the three literals are the same words on both sides — so the finiteness precondition is never opened.
  The three frames are the generated frame runs (the reference's is its run with the result dropped), and no operation
  was rewritten by the idealization, so that conjunct is trivial.
-/
import proofs.«175749_g86139864088598_cont_9to1c4b_544_2_alg».proof.Defs
import proofs.«175749_g86139864088598_cont_9to1c4b_544_2_alg».proof.Proof.Gen.Kernel
import proofs.«175749_g86139864088598_cont_9to1c4b_544_2_alg».proof.Proof.Gen.Kernel.Skeleton
import proofs.«175749_g86139864088598_cont_9to1c4b_544_2_alg».proof.Proof.Gen.Kernel.Launch
import proofs.«175749_g86139864088598_cont_9to1c4b_544_2_alg».proof.Proof.Gen.Kernel.Points
import proofs.«175749_g86139864088598_cont_9to1c4b_544_2_alg».proof.Proof.Gen.Kernel.Frame
import proofs.«175749_g86139864088598_cont_9to1c4b_544_2_alg».proof.Proof.Gen.KernelIdeal
import proofs.«175749_g86139864088598_cont_9to1c4b_544_2_alg».proof.Proof.Gen.KernelIdeal.Skeleton
import proofs.«175749_g86139864088598_cont_9to1c4b_544_2_alg».proof.Proof.Gen.KernelIdeal.Launch
import proofs.«175749_g86139864088598_cont_9to1c4b_544_2_alg».proof.Proof.Gen.KernelIdeal.Points
import proofs.«175749_g86139864088598_cont_9to1c4b_544_2_alg».proof.Proof.Gen.KernelIdeal.Frame
import proofs.«175749_g86139864088598_cont_9to1c4b_544_2_alg».proof.Proof.Gen.ReferenceIdeal
import proofs.«175749_g86139864088598_cont_9to1c4b_544_2_alg».proof.Proof.Gen.ReferenceIdeal.Run
import proofs.«175749_g86139864088598_cont_9to1c4b_544_2_alg».proof.Proof.Gen.ReferenceIdeal.Read
import proofs.«175749_g86139864088598_cont_9to1c4b_544_2_alg».proof.Proof.Gen.Pre_finite_inputs
import proofs.«175749_g86139864088598_cont_9to1c4b_544_2_alg».proof.Proof.Threshold
import proofs.«175749_g86139864088598_cont_9to1c4b_544_2_alg».proof.Proof.Reference
import proofs.«175749_g86139864088598_cont_9to1c4b_544_2_alg».proof.Proof.KernelBlocks
import proofs.«175749_g86139864088598_cont_9to1c4b_544_2_alg».proof.Proof.KernelValue
import Idealize.ShloMosaic.Adequacy
import Idealize.ShloMosaic.Init

noncomputable section

namespace Cert.Proof

open Idealize.ShloMosaic Idealize.SL.Sem

section
variable [hK : Cert.Kernel.Facts] [hKI : Cert.KernelIdeal.Facts] [hR : Cert.ReferenceIdeal.Facts] [hP : Cert.Pre_finite_inputs.Facts]

/-- The word-level kernel runs and leaves its argument unchanged: the generated frame. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves its argument unchanged: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the argument, both programs end with the threshold of that argument: the kernel by its
    blocks and the cancelling reshapes, the reference by its composed term read index by index. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.val_main_v4_eq_thr, hagree c]

end

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
